-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x512 : Shape := ⟨4, ![2, 8, 2048, 512]⟩
abbrev S512x512 : Shape := ⟨2, ![512, 512]⟩
abbrev S_ : Shape := ⟨0, ![]⟩

class Facts : Prop where
  bcast_S_S2x8x2048x512 : S_.BroadcastsInDim S2x8x2048x512 (![] : Fin 0 → Fin S2x8x2048x512.rank)
  reducesTo_S2x8x2048x512_S_d0_1_2_3 : S2x8x2048x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S2x8x2048x512 .f32) (main_arg1 : FVec F S2x8x2048x512 .f32) (main_arg2 : FVec F S512x512 .f32) : IVec S_ 1 :=
  let main_v0 : FVec F S2x8x2048x512 .f32 := Host.absf main_arg0
  let main_cst : FVec F S_ .f32 := constant S_ .f32 0x7F800000#32
  let main_v1 : FVec F S2x8x2048x512 .f32 := broadcastInDim S2x8x2048x512 ![] bcast_S_S2x8x2048x512 main_cst
  let main_v2 : IVec S2x8x2048x512 1 := cmpf .olt main_v0 main_v1
  let main_c : IVec S_ 1 := constantI S_ 1 1#1
  let main_v3 : IVec S_ 1 := (fun x v => Host.reduce IntOp.andi x v reducesTo_S2x8x2048x512_S_d0_1_2_3 h_S_) main_v2 main_c
  let main_v4 : FVec F S2x8x2048x512 .f32 := Host.absf main_arg1
  let main_cst_0 : FVec F S_ .f32 := constant S_ .f32 0x7F800000#32
  let main_v5 : FVec F S2x8x2048x512 .f32 := broadcastInDim S2x8x2048x512 ![] bcast_S_S2x8x2048x512 main_cst_0
  let main_v6 : IVec S2x8x2048x512 1 := cmpf .olt main_v4 main_v5
  let main_c_1 : IVec S_ 1 := constantI S_ 1 1#1
  let main_v7 : IVec S_ 1 := (fun x v => Host.reduce IntOp.andi x v reducesTo_S2x8x2048x512_S_d0_1_2_3 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S2x8x2048x512 : Shape := ⟨4, ![2, 8, 2048, 512]⟩
abbrev S512x512 : Shape := ⟨2, ![512, 512]⟩
abbrev S16x2048x512 : Shape := ⟨3, ![16, 2048, 512]⟩
abbrev S16x2048x2048 : Shape := ⟨3, ![16, 2048, 2048]⟩
abbrev S1x512x512 : Shape := ⟨3, ![1, 512, 512]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩
abbrev S2x8x2048x2048 : Shape := ⟨4, ![2, 8, 2048, 2048]⟩

abbrev nBuf : Space → Nat
  | .hbm => 9
  | .vmem => 9
  | .smem => 0
  | _ => 0

abbrev bufTy : (tb : Table) → Fin (tcTables nBuf tb) → BufTy
  | .hbm, ⟨0, _⟩ => ⟨S2x8x2048x512, .f32⟩
  | .hbm, ⟨1, _⟩ => ⟨S2x8x2048x512, .f32⟩
  | .hbm, ⟨2, _⟩ => ⟨S512x512, .f32⟩
  | .hbm, ⟨3, _⟩ => ⟨S16x2048x512, .f32⟩
  | .hbm, ⟨4, _⟩ => ⟨S16x2048x512, .f32⟩
  | .hbm, ⟨5, _⟩ => ⟨S16x2048x512, .f32⟩
  | .hbm, ⟨6, _⟩ => ⟨S16x2048x2048, .f32⟩
  | .hbm, ⟨7, _⟩ => ⟨S2x8x2048x512, .f32⟩
  | .hbm, ⟨8, _⟩ => ⟨S2x8x2048x2048, .f32⟩
  | .local _ .vmem, ⟨0, _⟩ => ⟨S1x512x512, .f32⟩
  | .local _ .vmem, ⟨1, _⟩ => ⟨S1x512x512, .f32⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x2048, .f32⟩
  | .local _ .vmem, ⟨8, _⟩ => ⟨S1x512x2048, .f32⟩
  | _, _ => ⟨S2x8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x8x2048x512_S16x2048x512 : S2x8x2048x512.ShapeCasts S16x2048x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x512_S512x512_0_0 : ∀ a, (![0, 0] : Fin 2 → Nat) a + S512x512.size a ≤ S512x512.size a
  h_S512x512 : 0 < S512x512.numel
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x512_S1x512x512 : S512x512.ShapeCasts S1x512x512
  shapeCasts_S16x2048x512_S2x8x2048x512 : S16x2048x512.ShapeCasts S2x8x2048x512
  shapeCasts_S16x2048x2048_S2x8x2048x2048 : S16x2048x2048.ShapeCasts S2x8x2048x2048
  dot_S512x512_S512x512_S512x512_1_0_0_1_n_n_wf : DotDims.WF S512x512 S512x512 S512x512 [1] [0] [0] [1] [] []
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S16x2048x512.size a
  hwx0_0 : ∀ i : grid0.Coords, EltTy.bits .f32 = 32 ∨ (Rect.block (s := S16x2048x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S16x2048x512.size a
  hwx0_1 : ∀ i : grid0.Coords, EltTy.bits .f32 = 32 ∨ (Rect.block (s := S16x2048x512) S1x2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S16x2048x512.size a
  hwx0_3 : ∀ i : grid0.Coords, EltTy.bits .f32 = 32 ∨ (Rect.block (s := S16x2048x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S16x2048x2048.size a
  hwx0_4 : ∀ i : grid0.Coords, EltTy.bits .f32 = 32 ∨ (Rect.block (s := S16x2048x2048) S1x512x2048.size (cc0_transform_4 i) (hinb0_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x8x2048x512 : Shape := ⟨4, ![2, 8, 2048, 512]⟩
abbrev S512x512 : Shape := ⟨2, ![512, 512]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2x8x2048x512, .f32⟩
  | .hbm, ⟨1, _⟩ => ⟨S2x8x2048x512, .f32⟩
  | .hbm, ⟨2, _⟩ => ⟨S512x512, .f32⟩
  | .hbm, ⟨3, _⟩ => ⟨S2x8x2048x512, .f32⟩
  | .hbm, ⟨4, _⟩ => ⟨S2x8x2048x2048, .f32⟩
  | .hbm, ⟨5, _⟩ => ⟨S_, .f32⟩
  | .hbm, ⟨6, _⟩ => ⟨S2x8x2048, .f32⟩
  | .hbm, ⟨7, _⟩ => ⟨S_, .f32⟩
  | .hbm, ⟨8, _⟩ => ⟨S2x8x2048, .f32⟩
  | .hbm, ⟨9, _⟩ => ⟨S2x8x2048, .f32⟩
  | .hbm, ⟨10, _⟩ => ⟨S2x8x2048x1, .f32⟩
  | .hbm, ⟨11, _⟩ => ⟨S2x8x2048x2048, .f32⟩
  | .hbm, ⟨12, _⟩ => ⟨S2x8x2048x2048, .f32⟩
  | .hbm, ⟨13, _⟩ => ⟨S2x8x2048x2048, .f32⟩
  | .hbm, ⟨14, _⟩ => ⟨S_, .f32⟩
  | .hbm, ⟨15, _⟩ => ⟨S2x8x2048, .f32⟩
  | .hbm, ⟨16, _⟩ => ⟨S2x8x2048x1, .f32⟩
  | .hbm, ⟨17, _⟩ => ⟨S2x8x2048x2048, .f32⟩
  | .hbm, ⟨18, _⟩ => ⟨S2x8x2048x2048, .f32⟩
  | .hbm, ⟨19, _⟩ => ⟨S2x8x2048x512, .f32⟩
  | _, _ => ⟨S2x8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S2x8x2048x2048_S2x8x2048_d3 : S2x8x2048x2048.ReducesTo [3] S2x8x2048
  h_S_ : 0 < S_.numel
  bcast_S_S2x8x2048 : S_.BroadcastsInDim S2x8x2048 (![] : Fin 0 → Fin S2x8x2048.rank)
  bcast_S2x8x2048_S2x8x2048x1_0_1_2 : S2x8x2048.BroadcastsInDim S2x8x2048x1 (![0, 1, 2] : Fin 3 → Fin S2x8x2048x1.rank)
  bcast_S2x8x2048x1_S2x8x2048x2048_0_1_2_3 : S2x8x2048x1.BroadcastsInDim S2x8x2048x2048 (![0, 1, 2, 3] : Fin 4 → Fin S2x8x2048x2048.rank)
  dot_S2x8x2048x512_S512x512_S2x8x2048x512_3_0_012_1_n_n_wf : DotDims.WF S2x8x2048x512 S512x512 S2x8x2048x512 [3] [0] [0, 1, 2] [1] [] []
  dot_S2x8x2048x512_S2x8x2048x512_S2x8x2048x2048_3_3_2_2_01_01_wf : DotDims.WF S2x8x2048x512 S2x8x2048x512 S2x8x2048x2048 [3] [3] [2] [2] [0, 1] [0, 1]
  dot_S2x8x2048x2048_S2x8x2048x512_S2x8x2048x512_3_2_2_3_01_01_wf : DotDims.WF S2x8x2048x2048 S2x8x2048x512 S2x8x2048x512 [3] [2] [2] [3] [0, 1] [0, 1]

variable [Facts₀]

def dot_S2x8x2048x512_S512x512_S2x8x2048x512_3_0_012_1_n_n : DotDims S2x8x2048x512 S512x512 S2x8x2048x512 where
  lhsContracting := [3]
  rhsContracting := [0]
  lhsNonContracting := [0, 1, 2]
  rhsNonContracting := [1]
  lhsBatch := []
  rhsBatch := []
  wf := dot_S2x8x2048x512_S512x512_S2x8x2048x512_3_0_012_1_n_n_wf
def dot_S2x8x2048x512_S2x8x2048x512_S2x8x2048x2048_3_3_2_2_01_01 : DotDims S2x8x2048x512 S2x8x2048x512 S2x8x2048x2048 where
  lhsContracting := [3]
  rhsContracting := [3]
  lhsNonContracting := [2]
  rhsNonContracting := [2]
  lhsBatch := [0, 1]
  rhsBatch := [0, 1]
  wf := dot_S2x8x2048x512_S2x8x2048x512_S2x8x2048x2048_3_3_2_2_01_01_wf
def dot_S2x8x2048x2048_S2x8x2048x512_S2x8x2048x512_3_2_2_3_01_01 : DotDims S2x8x2048x2048 S2x8x2048x512 S2x8x2048x512 where
  lhsContracting := [3]
  rhsContracting := [2]
  lhsNonContracting := [2]
  rhsNonContracting := [3]
  lhsBatch := [0, 1]
  rhsBatch := [0, 1]
  wf := dot_S2x8x2048x2048_S2x8x2048x512_S2x8x2048x512_3_2_2_3_01_01_wf

class Facts : Prop extends Facts₀ where

variable [Facts]
-- ==== Proof.Softmax.lean ====
/-
  Bilinear-score attention, one query row at a time, on the extended reals.

  For a query row x (512 entries), the bilinear form M (512 × 512) and the keys K of the row's batch-and-group
  (2048 rows of 512 entries, which also serve as the values):

    proj x M e      = Σ_d x(d) · M(d, e)                    the projected query
    score q K j     = Σ_e q(e) · K(j, e)                    the logit against key j
    rowMax s        = the maximum of the 2048 logits, taken from −∞
    expo s j        = exp (s(j) − rowMax s)
    weight s j      = expo s j / Σ_j' expo s j'             the softmax weight of key j
    mix a K d       = Σ_j a(j) · K(j, d)                    the weighted sum of the value rows

  attnRow is the row of softmax weights and outRow the attention output row. attnArr and outArr are the two result
  arrays [2, 8, 2048, 2048] and [2, 8, 2048, 512] as functions of the three argument arrays: entry (b, g, i, ·) is the row
  function of query row (b, g, i) and of the keys of (b, g). Nothing here depends on a program.
-/
import Idealize.ShloMosaic.PureOps.Ideal
import Idealize.ShloMosaic.Lib.ValueIdx

noncomputable section

open scoped BigOperators

namespace Cert.Attn

open Idealize.ShloMosaic Idealize.ShloMosaic.ValueIdx

/-- What the word 0xFF800000 denotes: the start of the maximum. -/
abbrev negInf : EReal := Ideal.ofBits .f32 0xFF800000#32

/-- The projected query: x · M. -/
def proj (x : Fin 512 → EReal) (M : Fin 512 → Fin 512 → EReal) (e : Fin 512) : EReal := ∑ d : Fin 512, x d * M d e

/-- The logit of a projected query against key j. -/
def score (q : Fin 512 → EReal) (K : Fin 2048 → Fin 512 → EReal) (j : Fin 2048) : EReal := ∑ e : Fin 512, q e * K j e

/-- The largest logit of the row, taken from −∞. -/
def rowMax (s : Fin 2048 → EReal) : EReal := (Finset.univ : Finset (Fin 2048)).fold max negInf s

/-- The shifted exponential of logit j. -/
def expo (s : Fin 2048 → EReal) (j : Fin 2048) : EReal := Ideal.exp (s j - rowMax s)

/-- The softmax weight of key j. -/
def weight (s : Fin 2048 → EReal) (j : Fin 2048) : EReal := Ideal.div (expo s j) (∑ k : Fin 2048, expo s k)

/-- The weighted sum of the value rows, entry d. -/
def mix (a : Fin 2048 → EReal) (K : Fin 2048 → Fin 512 → EReal) (d : Fin 512) : EReal := ∑ j : Fin 2048, a j * K j d

/-- The softmax weights of one query row. -/
def attnRow (x : Fin 512 → EReal) (M : Fin 512 → Fin 512 → EReal) (K : Fin 2048 → Fin 512 → EReal) (j : Fin 2048) : EReal :=
  weight (score (proj x M) K) j

/-- The attention output of one query row. -/
def outRow (x : Fin 512 → EReal) (M : Fin 512 → Fin 512 → EReal) (K : Fin 2048 → Fin 512 → EReal) (d : Fin 512) : EReal :=
  mix (attnRow x M K) K d

/-- The maximum of −∞ and the row maximum is the row maximum: the fold already starts from −∞. -/
theorem max_negInf_rowMax (s : Fin 2048 → EReal) : max negInf (rowMax s) = rowMax s :=
  max_eq_right ((Finset.le_fold_max negInf).mpr (Or.inl le_rfl))

/-- The array of softmax weights [2, 8, 2048, 2048] as a function of the argument arrays. -/
def attnArr (po pr : (⟨4, ![2, 8, 2048, 512]⟩ : Shape).Idx → EReal) (M : (⟨2, ![512, 512]⟩ : Shape).Idx → EReal) :
    (⟨4, ![2, 8, 2048, 2048]⟩ : Shape).Idx → EReal := fun i =>
  attnRow (fun d => po (ix4 (i 0) (i 1) (i 2) d)) (fun d e => M (ix2 d e)) (fun j e => pr (ix4 (i 0) (i 1) j e)) (i 3)

/-- The attention output [2, 8, 2048, 512] as a function of the argument arrays. -/
def outArr (po pr : (⟨4, ![2, 8, 2048, 512]⟩ : Shape).Idx → EReal) (M : (⟨2, ![512, 512]⟩ : Shape).Idx → EReal) :
    (⟨4, ![2, 8, 2048, 512]⟩ : Shape).Idx → EReal := fun i =>
  outRow (fun d => po (ix4 (i 0) (i 1) (i 2) d)) (fun d e => M (ix2 d e)) (fun j e => pr (ix4 (i 0) (i 1) j e)) (i 3)

end Cert.Attn

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibContract.lean ====
/-
  A contraction over ONE axis, read as a sum over that axis's coordinate.

  At the ideal values a matrix product, whatever its dimension numbers, is at each output index j the sum over the
  contraction index set of  l (lhsIdx j q) * r (rhsIdx j q).  When exactly one axis of each operand is contracted,
  of extent K, the contraction index is one coordinate k : Fin K, and the sum is over k of the operands at the two
  indices that q = k gives. `single_sum` states this for any dimension numbers; the operand indices at each k are
  supplied by the caller (they are read off the dimension numbers coordinate by coordinate).
  `matmul_zero_single` and `dotGeneral_single` are the same for a product into the zero accumulator and for the
  host's product.
-/
import Idealize.ShloMosaic.Lib.ValueIdx
import Idealize.ShloMosaic.PureOps.Ideal.Laws

noncomputable section

open scoped BigOperators

namespace Cert.Lib.Contract

open Idealize.ShloMosaic Idealize.ShloMosaic.ValueIdx

variable {sl sr so : Shape}

/-- The contraction sum over one contracted axis of extent K, re-indexed through the axis's coordinate. -/
theorem single_sum (d : DotDims sl sr so) (K : ℕ) (hr : d.contr.rank = 1) (hs : d.contr.size ⟨0, by omega⟩ = K)
    (l : sl.Idx → EReal) (r : sr.Idx → EReal) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    ∑ q : d.contr.Idx, l (d.lhsIdx j q) * r (d.rhsIdx j q) = ∑ k : Fin K, l (Li k) * r (Ri k) := by
  rw [← Equiv.sum_comp (contrEquiv1 d K hr hs).symm]
  refine Finset.sum_congr rfl fun k _ => ?_
  have hk := contrEquiv1_symm_val d K hr hs k
  rw [hl k _ hk, hrr k _ hk]

/-- A kernel's matrix product into the zero accumulator, one axis contracted, read at an output index. -/
theorem matmul_zero_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    matmul d prec l r (constant so .f32 0x00000000#32) j = ∑ k : Fin K, l (Li k) * r (Ri k) :=
  (Ideal.matmul_constant_zero_apply d prec l r j).trans (single_sum d K hr hs l r j Li Ri hl hrr)

/-- The host's matrix product, one axis contracted, read at an output index. -/
theorem dotGeneral_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    Host.dotGeneral d prec l r j = ∑ k : Fin K, l (Li k) * r (Ri k) :=
  (Ideal.dotGeneral_apply d prec .single l r j).trans (single_sum d K hr hs l r j Li Ri hl hrr)

end Cert.Lib.Contract

end
-- ==== Proof.KernelRows.lean ====
/-
  The kernel body's three stored values read at an index, at the ideal values.

  The body loads a query block x0 [1, 512, 512], the bilinear form x2 [512, 512] and the keys x1 [1, 2048, 512] of the
  block's batch-and-group, and computes, for each of the 512 query rows r of the block:
    the projected query (a product into a zero accumulator: the sum over d of x0(0, r, d) · x2(d, e)),
    the logits against every key (a product contracting the two last axes: the sum over e of q(r, e) · x1(0, j, e)),
    the row maximum (a lane reduction by maximum from −∞, kept as a [512, 1] column and spread over the 2048 lanes),
    the shifted exponentials, their lane sum (from the zero word, kept and spread the same way), the quotient,
    and the product of the weights with the keys read as values (the sum over j of A(r, j) · x1(0, j, d)).
  So the stored weights at (0, r, j) are attnRow of row r at j, and the stored output at (0, r, d) is outRow of row r at d.
-/
import proofs.«121790_j5282809774979_1_alg».proof.Proof.Gen.KernelIdeal.Skeleton
import proofs.«121790_j5282809774979_1_alg».proof.Proof.Softmax
import proofs.«121790_j5282809774979_1_alg».proof.Proof.LibKeepdims
import proofs.«121790_j5282809774979_1_alg».proof.Proof.LibPlainDot
import proofs.«121790_j5282809774979_1_alg».proof.Proof.LibContract
import Idealize.ShloMosaic.Lib.ValueLayout
import Idealize.ShloMosaic.PureOps.Ideal.Laws

noncomputable section

open scoped BigOperators

namespace Cert.KernelIdeal.Rows

open Cert.KernelIdeal Cert.KernelIdeal.Gen Cert.Attn Idealize.ShloMosaic Idealize.ShloMosaic.ValueIdx

/-! ## The three products -/

/-- The projection x · M into a zero accumulator, at (r, e). -/
theorem proj_apply (l w : FVec Ideal S512x512 .f32) (r e : Fin 512) :
    matmul dot_S512x512_S512x512_S512x512_1_0_0_1_n_n (some .fp32) l w (constant (F := Ideal) S512x512 .f32 0x00000000#32) (ix2 r e)
      = ∑ d : Fin 512, l (ix2 r d) * w (ix2 d e) := by
  rw [Cert.Lib.PlainDot.eq_plain dot_S512x512_S512x512_S512x512_1_0_0_1_n_n rfl rfl rfl rfl rfl rfl]
  exact Cert.Lib.PlainDot.matmul_zero_plain_apply (some .fp32) l w (ix2 r e)

/-- The weights times the value rows into a zero accumulator, at (r, d). -/
theorem mix_apply (a : FVec Ideal S512x2048 .f32) (v : FVec Ideal S2048x512 .f32) (r d : Fin 512) :
    matmul dot_S512x2048_S2048x512_S512x512_1_0_0_1_n_n (some .fp32) a v (constant (F := Ideal) S512x512 .f32 0x00000000#32) (ix2 r d)
      = ∑ j : Fin 2048, a (ix2 r j) * v (ix2 j d) := by
  rw [Cert.Lib.PlainDot.eq_plain dot_S512x2048_S2048x512_S512x512_1_0_0_1_n_n rfl rfl rfl rfl rfl rfl]
  exact Cert.Lib.PlainDot.matmul_zero_plain_apply (some .fp32) a v (ix2 r d)

/-- The logits' dimension numbers: the left operand's row is the output row, -/
theorem score_lhs_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
/-- its column the contracted coordinate; -/
theorem score_lhs_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
/-- the right operand's row is the output column, -/
theorem score_rhs_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
/-- its column the contracted coordinate. -/
theorem score_rhs_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- The logits q · kᵀ into a zero accumulator, at (r, j): the two last axes are contracted. -/
theorem scores_apply (q : FVec Ideal S512x512 .f32) (k : FVec Ideal S2048x512 .f32) (r : Fin 512) (j : Fin 2048) :
    matmul dot_S512x512_S2048x512_S512x2048_1_1_0_0_n_n (some .fp32) q k (constant (F := Ideal) S512x2048 .f32 0x00000000#32) (ix2 r j)
      = ∑ e : Fin 512, q (ix2 r e) * k (ix2 j e) :=
  Cert.Lib.Contract.matmul_zero_single dot_S512x512_S2048x512_S512x2048_1_1_0_0_n_n (some .fp32) 512 rfl rfl q k (ix2 r j)
    (fun e => ix2 r e) (fun e => ix2 j e)
    (fun e c hc => funext fun a => Fin.ext (by
      match a with
      | ⟨0, _⟩ => exact score_lhs_0 _ _
      | ⟨1, _⟩ => exact (score_lhs_1 _ _).trans hc))
    (fun e c hc => funext fun a => Fin.ext (by
      match a with
      | ⟨0, _⟩ => exact score_rhs_0 _ _
      | ⟨1, _⟩ => exact (score_rhs_1 _ _).trans hc))

/-! ## The softmax of a block of logits -/

/-- A lane reduction by maximum from the word of −∞: at row r the row maximum. -/
theorem lanes_max_apply (s : FVec Ideal S512x2048 .f32) (h : S512x2048.Reduces [1] S512) (hφ : FKind.Formats .f32)
    (hacc : (0xFF800000#32 : BitVec 32) = FKind.maximumf.neutral .f32 hφ) (r : Fin 512) :
    multiReduction .maximumf [1] S512 s 0xFF800000#32 h hφ hacc (ix1 r) = rowMax (fun j => s (ix2 r j)) := by
  refine (Ideal.multiReduction_maximumf_single s 0xFF800000#32 h hφ hacc (ix1 r)).trans ?_
  unfold rowMax
  refine congrArg (fun g => (Finset.univ : Finset (Fin 2048)).fold max negInf g) (funext fun j => congrArg s ?_)
  exact funext fun a => Fin.ext (by match a with | ⟨0, _⟩ => rfl | ⟨1, _⟩ => rfl)

/-- A lane reduction by addition from the zero word: at row r the sum of the row. -/
theorem lanes_sum_apply (s : FVec Ideal S512x2048 .f32) (h : S512x2048.Reduces [1] S512) (hφ : FKind.Formats .f32)
    (hacc : (0x00000000#32 : BitVec 32) = FKind.add.neutral .f32 hφ) (r : Fin 512) :
    multiReduction .add [1] S512 s 0x00000000#32 h hφ hacc (ix1 r) = ∑ j : Fin 2048, s (ix2 r j) := by
  refine (Ideal.multiReduction_add_single s 0x00000000#32 h hφ hacc (ix1 r)).trans ?_
  refine Finset.sum_congr rfl fun j _ => congrArg s ?_
  exact funext fun a => Fin.ext (by match a with | ⟨0, _⟩ => rfl | ⟨1, _⟩ => rfl)

/-- A [512] vector kept as a [512, 1] column and spread over the 2048 lanes reads, at (r, j), the vector at r. -/
theorem column_apply (v : FVec Ideal S512 .f32) (h1 : S512.ShapeCasts S512x1) (h2 : S512x1.Broadcasts S512x2048)
    (r : Fin 512) (j : Fin 2048) : broadcastTo S512x2048 (shapeCast S512x1 v h1) h2 (ix2 r j) = v (ix1 r) :=
  (Cert.LibKeepdims.broadcastTo_a1_ab_apply (shapeCast S512x1 v h1) h2 r j).trans (Cert.LibKeepdims.shapeCast_a_a1_apply v h1 r 0)

/-- The body's shifted exponentials of a block of logits. -/
def expoVec (s : FVec Ideal S512x2048 .f32) : FVec Ideal S512x2048 .f32 :=
  exp (subf s (broadcastTo S512x2048 (shapeCast S512x1 (multiReduction .maximumf [1] S512 s 0xFF800000#32 reduces_S512x2048_S512 (.inl rfl) rfl) shapeCasts_S512_S512x1) broadcasts_S512x1_S512x2048))

/-- The body's softmax of a block of logits. -/
def softmaxVec (s : FVec Ideal S512x2048 .f32) : FVec Ideal S512x2048 .f32 :=
  divf (expoVec s) (broadcastTo S512x2048 (shapeCast S512x1 (multiReduction .add [1] S512 (expoVec s) 0x00000000#32 reduces_S512x2048_S512 (.inl rfl) rfl) shapeCasts_S512_S512x1) broadcasts_S512x1_S512x2048)

/-- At (r, j) the shifted exponential of logit j of row r. -/
theorem expoVec_apply (s : FVec Ideal S512x2048 .f32) (r : Fin 512) (j : Fin 2048) :
    expoVec s (ix2 r j) = expo (fun k => s (ix2 r k)) j := by
  unfold expoVec expo
  exact congrArg (fun z => Ideal.exp (s (ix2 r j) - z))
    ((column_apply _ shapeCasts_S512_S512x1 broadcasts_S512x1_S512x2048 r j).trans (lanes_max_apply s reduces_S512x2048_S512 (.inl rfl) rfl r))

/-- At (r, j) the softmax weight of logit j of row r. -/
theorem softmaxVec_apply (s : FVec Ideal S512x2048 .f32) (r : Fin 512) (j : Fin 2048) :
    softmaxVec s (ix2 r j) = weight (fun k => s (ix2 r k)) j := by
  unfold softmaxVec weight
  refine congrArg₂ Ideal.div (expoVec_apply s r j) ?_
  refine (column_apply _ shapeCasts_S512_S512x1 broadcasts_S512x1_S512x2048 r j).trans ?_
  refine (lanes_sum_apply (expoVec s) reduces_S512x2048_S512 (.inl rfl) rfl r).trans ?_
  exact Finset.sum_congr rfl fun k _ => expoVec_apply s r k

/-! ## The stored values -/

/-- The weights the body computes are the softmax of the logits of the projected query block against the keys. -/
theorem pay1_eq (x0 : FVec Ideal S1x512x512 .f32) (x2 : FVec Ideal S512x512 .f32) (x1 : FVec Ideal S1x2048x512 .f32) :
    k0_pay1 (F := Ideal) x0 x2 x1 = softmaxVec (matmul dot_S512x512_S2048x512_S512x2048_1_1_0_0_n_n (some .fp32)
      (matmul dot_S512x512_S512x512_S512x512_1_0_0_1_n_n (some .fp32) (shapeCast S512x512 x0 shapeCasts_S1x512x512_S512x512) x2 (constant (F := Ideal) S512x512 .f32 0x00000000#32))
      (shapeCast S2048x512 x1 shapeCasts_S1x2048x512_S2048x512) (constant (F := Ideal) S512x2048 .f32 0x00000000#32)) := rfl

/-- The weights at (r, j): the softmax weight of key j for query row r of the block. -/
theorem pay1_apply (x0 : FVec Ideal S1x512x512 .f32) (x2 : FVec Ideal S512x512 .f32) (x1 : FVec Ideal S1x2048x512 .f32)
    (r : Fin 512) (j : Fin 2048) :
    k0_pay1 (F := Ideal) x0 x2 x1 (ix2 r j)
      = attnRow (fun d => x0 (ix3 (0 : Fin 1) r d)) (fun d e => x2 (ix2 d e)) (fun k e => x1 (ix3 (0 : Fin 1) k e)) j := by
  rw [pay1_eq]
  refine (softmaxVec_apply _ r j).trans ?_
  unfold attnRow
  refine congrArg (fun s => weight s j) (funext fun k => ?_)
  refine (scores_apply _ _ r k).trans ?_
  unfold score
  refine Finset.sum_congr rfl fun e _ => ?_
  refine congrArg₂ (fun a b => a * b) ?_ (shapeCast_1ab_ab_apply x1 shapeCasts_S1x2048x512_S2048x512 k e)
  refine (proj_apply _ _ r e).trans ?_
  unfold proj
  exact Finset.sum_congr rfl fun d _ => congrArg (fun a => a * x2 (ix2 d e)) (shapeCast_1ab_ab_apply x0 shapeCasts_S1x512x512_S512x512 r d)

/-- The stored weights [1, 512, 2048] at (u, r, j). -/
theorem pay2_apply (x0 : FVec Ideal S1x512x512 .f32) (x2 : FVec Ideal S512x512 .f32) (x1 : FVec Ideal S1x2048x512 .f32)
    (u : Fin 1) (r : Fin 512) (j : Fin 2048) :
    k0_pay2 (F := Ideal) x0 x2 x1 (ix3 u r j)
      = attnRow (fun d => x0 (ix3 (0 : Fin 1) r d)) (fun d e => x2 (ix2 d e)) (fun k e => x1 (ix3 (0 : Fin 1) k e)) j := by
  unfold k0_pay2
  exact (shapeCast_ab_1ab_apply (k0_pay1 (F := Ideal) x0 x2 x1) shapeCasts_S512x2048_S1x512x2048 u r j).trans (pay1_apply x0 x2 x1 r j)

/-- The stored output [1, 512, 512] at (u, r, d), the keys loaded a second time as the values. -/
theorem pay3_apply (x0 : FVec Ideal S1x512x512 .f32) (x2 : FVec Ideal S512x512 .f32) (x1 x1' : FVec Ideal S1x2048x512 .f32)
    (u : Fin 1) (r d : Fin 512) :
    k0_pay3 (F := Ideal) x0 x2 x1 x1' (ix3 u r d)
      = mix (attnRow (fun d => x0 (ix3 (0 : Fin 1) r d)) (fun d e => x2 (ix2 d e)) (fun k e => x1 (ix3 (0 : Fin 1) k e)))
          (fun k e => x1' (ix3 (0 : Fin 1) k e)) d := by
  unfold k0_pay3
  refine (shapeCast_ab_1ab_apply _ shapeCasts_S512x512_S1x512x512 u r d).trans ?_
  refine (mix_apply _ _ r d).trans ?_
  unfold mix
  exact Finset.sum_congr rfl fun j _ => congrArg₂ (fun a b => a * b) (pay1_apply x0 x2 x1 r j)
    (shapeCast_1ab_ab_apply x1' shapeCasts_S1x2048x512_S2048x512 j d)

end Cert.KernelIdeal.Rows

end
-- ==== Proof.Flat.lean ====
/-
  The two result arrays over a flattened batch-and-group axis, and the reshapes around them.

  The kernel's program reshapes po_z and pr_z from [2, 8, 2048, 512] to [16, 2048, 512], computes the weights as
  [16, 2048, 2048] and the output as [16, 2048, 512], and reshapes both back to four axes. A reshape keeps the row-major
  position, and (b, g, i, d) and (8 b + g, i, d) have the same one: so the flattened arrays attn16 and out16 of the
  reshaped arguments, reshaped back, are attnArr and outArr of the arguments. Nothing here depends on a program.
-/
import proofs.«121790_j5282809774979_1_alg».proof.Proof.Softmax
import Idealize.ShloMosaic.Lib.Pipeline.Value

noncomputable section

open scoped BigOperators

namespace Cert.Attn

open Idealize.ShloMosaic Idealize.ShloMosaic.ValueIdx

/-- The row functions depend only on their arguments' values. -/
theorem attnRow_congr {x x' : Fin 512 → EReal} {M M' : Fin 512 → Fin 512 → EReal} {K K' : Fin 2048 → Fin 512 → EReal}
    {j j' : Fin 2048} (hx : x = x') (hM : M = M') (hK : K = K') (hj : j = j') : attnRow x M K j = attnRow x' M' K' j' := by
  subst hx hM hK hj; rfl

theorem outRow_congr {x x' : Fin 512 → EReal} {M M' : Fin 512 → Fin 512 → EReal} {K K' : Fin 2048 → Fin 512 → EReal}
    {d d' : Fin 512} (hx : x = x') (hM : M = M') (hK : K = K') (hd : d = d') : outRow x M K d = outRow x' M' K' d' := by
  subst hx hM hK hd; rfl

/-- The weights over the flattened batch-and-group axis [16, 2048, 2048], from the arrays the region reads. -/
def attn16 (a0 a1 : (⟨3, ![16, 2048, 512]⟩ : Shape).Idx → EReal) (a2 : (⟨2, ![512, 512]⟩ : Shape).Idx → EReal) :
    (⟨3, ![16, 2048, 2048]⟩ : Shape).Idx → EReal := fun i =>
  attnRow (fun d => a0 (ix3 (i 0) (i 1) d)) (fun d e => a2 (ix2 d e)) (fun k e => a1 (ix3 (i 0) k e)) (i 2)

/-- The output over the flattened batch-and-group axis [16, 2048, 512]. -/
def out16 (a0 a1 : (⟨3, ![16, 2048, 512]⟩ : Shape).Idx → EReal) (a2 : (⟨2, ![512, 512]⟩ : Shape).Idx → EReal) :
    (⟨3, ![16, 2048, 512]⟩ : Shape).Idx → EReal := fun i =>
  outRow (fun d => a0 (ix3 (i 0) (i 1) d)) (fun d e => a2 (ix2 d e)) (fun k e => a1 (ix3 (i 0) k e)) (i 2)

/-- An argument reshaped to [16, 2048, 512] reads, at (8 b + g, i, d), the argument at (b, g, i, d). -/
theorem flat_read (x : (⟨4, ![2, 8, 2048, 512]⟩ : Shape).Idx → EReal)
    (h : (⟨4, ![2, 8, 2048, 512]⟩ : Shape).ShapeCasts ⟨3, ![16, 2048, 512]⟩)
    (b : Fin 2) (g : Fin 8) (i : Fin 2048) (d : Fin 512) (hbg : b.val * 8 + g.val < 16) :
    shapeCast ⟨3, ![16, 2048, 512]⟩ x h (ix3 (⟨b.val * 8 + g.val, hbg⟩ : Fin 16) i d) = x (ix4 b g i d) :=
  shapeCast_apply x h _ _ (by
    rw [Shape.rowMajor_val_four, Shape.rowMajor_val_three]
    rfl)

/-- The flattened weights of the reshaped arguments, reshaped back to four axes, are attnArr of the arguments. -/
theorem attn_reshape (po pr : (⟨4, ![2, 8, 2048, 512]⟩ : Shape).Idx → EReal) (M : (⟨2, ![512, 512]⟩ : Shape).Idx → EReal)
    (h1 : (⟨4, ![2, 8, 2048, 512]⟩ : Shape).ShapeCasts ⟨3, ![16, 2048, 512]⟩)
    (h2 : (⟨3, ![16, 2048, 2048]⟩ : Shape).ShapeCasts ⟨4, ![2, 8, 2048, 2048]⟩) :
    shapeCast ⟨4, ![2, 8, 2048, 2048]⟩ (attn16 (shapeCast ⟨3, ![16, 2048, 512]⟩ po h1) (shapeCast ⟨3, ![16, 2048, 512]⟩ pr h1) M) h2
      = attnArr po pr M := by
  funext i
  obtain ⟨b, g, r, j, rfl⟩ : ∃ (b : Fin 2) (g : Fin 8) (r : Fin 2048) (j : Fin 2048), i = ix4 b g r j :=
    ⟨i 0, i 1, i 2, i 3, eq_ix4 i⟩
  have hbg : b.val * 8 + g.val < 16 := by have := b.isLt; have := g.isLt; omega
  refine (shapeCast_apply _ h2 (ix4 b g r j) (ix3 (⟨b.val * 8 + g.val, hbg⟩ : Fin 16) r j) (by
    rw [Shape.rowMajor_val_four, Shape.rowMajor_val_three]
    rfl)).trans ?_
  show attnRow _ _ _ _ = attnRow _ _ _ _
  exact attnRow_congr (funext fun d => flat_read po h1 b g r d hbg) rfl
    (funext fun k => funext fun e => flat_read pr h1 b g k e hbg) rfl

/-- The flattened output of the reshaped arguments, reshaped back to four axes, is outArr of the arguments. -/
theorem out_reshape (po pr : (⟨4, ![2, 8, 2048, 512]⟩ : Shape).Idx → EReal) (M : (⟨2, ![512, 512]⟩ : Shape).Idx → EReal)
    (h1 : (⟨4, ![2, 8, 2048, 512]⟩ : Shape).ShapeCasts ⟨3, ![16, 2048, 512]⟩)
    (h2 : (⟨3, ![16, 2048, 512]⟩ : Shape).ShapeCasts ⟨4, ![2, 8, 2048, 512]⟩) :
    shapeCast ⟨4, ![2, 8, 2048, 512]⟩ (out16 (shapeCast ⟨3, ![16, 2048, 512]⟩ po h1) (shapeCast ⟨3, ![16, 2048, 512]⟩ pr h1) M) h2
      = outArr po pr M := by
  funext i
  obtain ⟨b, g, r, d, rfl⟩ : ∃ (b : Fin 2) (g : Fin 8) (r : Fin 2048) (d : Fin 512), i = ix4 b g r d :=
    ⟨i 0, i 1, i 2, i 3, eq_ix4 i⟩
  have hbg : b.val * 8 + g.val < 16 := by have := b.isLt; have := g.isLt; omega
  refine (shapeCast_apply _ h2 (ix4 b g r d) (ix3 (⟨b.val * 8 + g.val, hbg⟩ : Fin 16) r d) (by
    rw [Shape.rowMajor_val_four, Shape.rowMajor_val_three]
    rfl)).trans ?_
  show outRow _ _ _ _ = outRow _ _ _ _
  exact outRow_congr (funext fun e => flat_read po h1 b g r e hbg) rfl
    (funext fun k => funext fun e => flat_read pr h1 b g k e hbg) rfl

end Cert.Attn

end
-- ==== Proof.KernelBlocks.lean ====
/-
  From blocks to arrays: what the region leaves in its two result arrays.

  The grid is 16 batch-and-group values by 4 query tiles. At point (bg, qi) the body is given the query block
  [1, 512, 512] at (bg, qi, 0) of the reshaped po_z, the keys' block [1, 2048, 512] at (bg, 0, 0) of the reshaped pr_z
  and the whole bilinear form, and its stores fill the output block [1, 512, 512] at (bg, qi, 0) and the weights' block
  [1, 512, 2048] at (bg, qi, 0). Row r of the block is row 512 qi + r of batch-and-group bg, and the stored values of that
  row depend only on that query row, on M and on the keys of bg: so what a point writes back is its block of the
  flattened arrays out16 and attn16 of the arrays the region reads. The blocks tile the two arrays (row i of bg is in
  the block of point (bg, i / 512)), so after the region the arrays are out16 and attn16.
-/
import proofs.«121790_j5282809774979_1_alg».proof.Proof.Gen.KernelIdeal.Frame
import proofs.«121790_j5282809774979_1_alg».proof.Proof.KernelRows
import proofs.«121790_j5282809774979_1_alg».proof.Proof.Flat
import Idealize.ShloMosaic.Lib.Pipeline.Value

noncomputable section

open scoped BigOperators

namespace Cert.KernelIdeal.Blocks

open Cert.KernelIdeal Cert.KernelIdeal.Gen Cert.Attn Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the body leaves in the two output buffers, at an index of the block -/

/-- The weights' buffer at (u, r, j): the softmax weight of key j for query row r of the block. -/
theorem out4_apply (x0 : FVec Ideal S1x512x512 .f32) (x1 : FVec Ideal S1x2048x512 .f32) (x2 : FVec Ideal S512x512 .f32)
    (y : S1x512x2048.Idx) :
    out0_4 (F := Ideal) x0 x1 x2 y
      = attnRow (fun d => x0 (ix3 (0 : Fin 1) (y 1) d)) (fun d e => x2 (ix2 d e)) (fun k e => x1 (ix3 (0 : Fin 1) k e)) (y 2) := by
  obtain ⟨u, r, j, rfl⟩ : ∃ (u : Fin 1) (r : Fin 512) (j : Fin 2048), y = ix3 u r j := ⟨y 0, y 1, y 2, eq_ix3 y⟩
  unfold out0_4
  rw [View.canon_unit_zero hz3]
  simp only [View.ld_unit_zero (S := S1x512x512) hz3, View.ld_unit_zero (S := S512x512) hz2, View.ld_unit_zero (S := S1x2048x512) hz3]
  exact Rows.pay2_apply x0 x2 x1 u r j

/-- The output buffer at (u, r, d): the attention output of query row r of the block, entry d. -/
theorem out3_apply (x0 : FVec Ideal S1x512x512 .f32) (x1 : FVec Ideal S1x2048x512 .f32) (x2 : FVec Ideal S512x512 .f32)
    (y : S1x512x512.Idx) :
    out0_3 (F := Ideal) x0 x1 x2 y
      = outRow (fun d => x0 (ix3 (0 : Fin 1) (y 1) d)) (fun d e => x2 (ix2 d e)) (fun k e => x1 (ix3 (0 : Fin 1) k e)) (y 2) := by
  obtain ⟨u, r, d, rfl⟩ : ∃ (u : Fin 1) (r : Fin 512) (d : Fin 512), y = ix3 u r d := ⟨y 0, y 1, y 2, eq_ix3 y⟩
  unfold out0_3
  rw [View.canon_unit_zero hz3]
  simp only [View.ld_unit_zero (S := S1x512x512) hz3, View.ld_unit_zero (S := S512x512) hz2, View.ld_unit_zero (S := S1x2048x512) hz3]
  exact Rows.pay3_apply x0 x2 x1 x1 u r d

/-! ## The index maps -/

/-- The printed index maps over the 64 grid points: the query, output and weights blocks move together along the
    batch-and-group axis and the query-tile axis, the keys' block along the batch-and-group axis only, the bilinear form's
    block stays, and every block starts at column 0. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 3) = win0_4.index t (0 : Fin 3) ∧ win0_3.index t (1 : Fin 3) = win0_4.index t (1 : Fin 3) ∧ win0_3.index t (2 : Fin 3) = 0
    ∧ win0_4.index t (2 : Fin 3) = 0 ∧ win0_4.index t (0 : Fin 3) < 16 ∧ win0_4.index t (1 : Fin 3) < 4 :=
  (by decide +kernel : ∀ t : Fin grid0.N, _)

/-- Every (batch-and-group, query-tile) pair is some grid point's, for the weights' window -/
theorem idx_onto4 : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])
/-- and for the output's window. -/
theorem idx_onto3 : ∀ (q0 : Fin 16) (q1 : Fin 4), ∃ t : Fin cfg0.N, win0_3.index t = ![q0.val, q1.val, 0] :=
  (by decide +kernel : ∀ (q0 : Fin 16) (q1 : Fin 4), ∃ t : Fin grid0.N, win0_3.index t = ![q0.val, q1.val, 0])

/-! ## The weights' array -/

/-- WHAT POINT t WRITES BACK to the weights' array is block t of attn16 of the arrays the region reads. -/
theorem flushed4_eq (c : Dev nD) (t : Fin cfg0.N) :
    (dats m 0 c).flushed 4 t = ((cfg0.win 4).blk t).view.read (Elt Ideal) (attn16 (V m c main_v0) (V m c main_v1) (V m c main_arg2)) := by
  show (cfg0.win 4).cut (grid0.coords t) ((dats m 0 c).after 4 t) = _
  rw [after0_4]
  obtain ⟨e00, e01, e02, e10, e11, e12, e20, e21, e30, e31, e32, e42, b40, b41⟩ := idx_facts t
  funext y
  show out0_4 (iblk m c 0 t) (iblk m c 1 t) (iblk m c 2 t) y = attn16 (V m c main_v0) (V m c main_v1) (V m c main_arg2) (((cfg0.win 4).blk t).view.emb y)
  refine (out4_apply (iblk m c 0 t) (iblk m c 1 t) (iblk m c 2 t) y).trans ?_
  unfold attn16
  refine attnRow_congr (funext fun d => ?_) (funext fun d => funext fun e => ?_) (funext fun k => funext fun e => ?_) (Fin.ext ?_)
  · show V m c main_v0 (((cfg0.win 0).blk t).view.emb (ix3 (0 : Fin 1) (y 1) d))
        = V m c main_v0 (ix3 ((((cfg0.win 4).blk t).view.emb y) 0) ((((cfg0.win 4).blk t).view.emb y) 1) d)
    refine congrArg (V m c main_v0) (funext fun a => Fin.ext ?_)
    match a with
    | ⟨0, _⟩ =>
      show win0_0.index t (0 : Fin 3) * 1 + 1 * 0 = win0_4.index t (0 : Fin 3) * 1 + 1 * (y 0).val
      have hy : (y 0).val < 1 := (y 0).isLt
      omega
    | ⟨1, _⟩ =>
      show win0_0.index t (1 : Fin 3) * 512 + 1 * (y 1).val = win0_4.index t (1 : Fin 3) * 512 + 1 * (y 1).val
      omega
    | ⟨2, _⟩ =>
      show win0_0.index t (2 : Fin 3) * 512 + 1 * d.val = d.val
      omega
  · show V m c main_arg2 (((cfg0.win 2).blk t).view.emb (ix2 d e)) = V m c main_arg2 (ix2 d e)
    refine congrArg (V m c main_arg2) (funext fun a => Fin.ext ?_)
    match a with
    | ⟨0, _⟩ =>
      show win0_2.index t (0 : Fin 2) * 512 + 1 * d.val = d.val
      omega
    | ⟨1, _⟩ =>
      show win0_2.index t (1 : Fin 2) * 512 + 1 * e.val = e.val
      omega
  · show V m c main_v1 (((cfg0.win 1).blk t).view.emb (ix3 (0 : Fin 1) k e))
        = V m c main_v1 (ix3 ((((cfg0.win 4).blk t).view.emb y) 0) k e)
    refine congrArg (V m c main_v1) (funext fun a => Fin.ext ?_)
    match a with
    | ⟨0, _⟩ =>
      show win0_1.index t (0 : Fin 3) * 1 + 1 * 0 = win0_4.index t (0 : Fin 3) * 1 + 1 * (y 0).val
      have hy : (y 0).val < 1 := (y 0).isLt
      omega
    | ⟨1, _⟩ =>
      show win0_1.index t (1 : Fin 3) * 2048 + 1 * k.val = k.val
      omega
    | ⟨2, _⟩ =>
      show win0_1.index t (2 : Fin 3) * 512 + 1 * e.val = e.val
      omega
  · show (y 2).val = win0_4.index t (2 : Fin 3) * 2048 + 1 * (y 2).val
    omega

/-- An index of the weights' array is in point t's block iff each coordinate is in the block's range on its axis. -/
theorem mem_blk4 (t : Fin cfg0.N) (i : S16x2048x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v2_1).slice (win0_4.rect t)).set ↔ _
  rw [View.set_slice_whole, Rect.mem_set_unit]
  exact Iff.rfl

/-- The weights' blocks tile their array: row i of batch-and-group bg is in the block of point (bg, i / 512). -/
theorem cover4 (i : S16x2048x2048.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  obtain ⟨t, ht⟩ := idx_onto4 ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 2048 ≤ (i 2).val ∧ (i 2).val < win0_4.index t (2 : Fin 3) * 2048 + 2048
    omega

/-- The weights' array after the region. -/
theorem final4 (c : Dev nD) : (dats m 0 c).arrAt 4 cfg0.N = attn16 (V m c main_v0) (V m c main_v1) (V m c main_arg2) :=
  (dats m 0 c).arrAt_eq_of_cover 4 _ (fun t _ => flushed4_eq m c t) cover4

/-! ## The output's array -/

/-- WHAT POINT t WRITES BACK to the output's array is block t of out16 of the arrays the region reads. -/
theorem flushed3_eq (c : Dev nD) (t : Fin cfg0.N) :
    (dats m 0 c).flushed 3 t = ((cfg0.win 3).blk t).view.read (Elt Ideal) (out16 (V m c main_v0) (V m c main_v1) (V m c main_arg2)) := by
  show (cfg0.win 3).cut (grid0.coords t) ((dats m 0 c).after 3 t) = _
  rw [after0_3]
  obtain ⟨e00, e01, e02, e10, e11, e12, e20, e21, e30, e31, e32, e42, b40, b41⟩ := idx_facts t
  funext y
  show out0_3 (iblk m c 0 t) (iblk m c 1 t) (iblk m c 2 t) y = out16 (V m c main_v0) (V m c main_v1) (V m c main_arg2) (((cfg0.win 3).blk t).view.emb y)
  refine (out3_apply (iblk m c 0 t) (iblk m c 1 t) (iblk m c 2 t) y).trans ?_
  unfold out16
  refine outRow_congr (funext fun d => ?_) (funext fun d => funext fun e => ?_) (funext fun k => funext fun e => ?_) (Fin.ext ?_)
  · show V m c main_v0 (((cfg0.win 0).blk t).view.emb (ix3 (0 : Fin 1) (y 1) d))
        = V m c main_v0 (ix3 ((((cfg0.win 3).blk t).view.emb y) 0) ((((cfg0.win 3).blk t).view.emb y) 1) d)
    refine congrArg (V m c main_v0) (funext fun a => Fin.ext ?_)
    match a with
    | ⟨0, _⟩ =>
      show win0_0.index t (0 : Fin 3) * 1 + 1 * 0 = win0_3.index t (0 : Fin 3) * 1 + 1 * (y 0).val
      have hy : (y 0).val < 1 := (y 0).isLt
      omega
    | ⟨1, _⟩ =>
      show win0_0.index t (1 : Fin 3) * 512 + 1 * (y 1).val = win0_3.index t (1 : Fin 3) * 512 + 1 * (y 1).val
      omega
    | ⟨2, _⟩ =>
      show win0_0.index t (2 : Fin 3) * 512 + 1 * d.val = d.val
      omega
  · show V m c main_arg2 (((cfg0.win 2).blk t).view.emb (ix2 d e)) = V m c main_arg2 (ix2 d e)
    refine congrArg (V m c main_arg2) (funext fun a => Fin.ext ?_)
    match a with
    | ⟨0, _⟩ =>
      show win0_2.index t (0 : Fin 2) * 512 + 1 * d.val = d.val
      omega
    | ⟨1, _⟩ =>
      show win0_2.index t (1 : Fin 2) * 512 + 1 * e.val = e.val
      omega
  · show V m c main_v1 (((cfg0.win 1).blk t).view.emb (ix3 (0 : Fin 1) k e))
        = V m c main_v1 (ix3 ((((cfg0.win 3).blk t).view.emb y) 0) k e)
    refine congrArg (V m c main_v1) (funext fun a => Fin.ext ?_)
    match a with
    | ⟨0, _⟩ =>
      show win0_1.index t (0 : Fin 3) * 1 + 1 * 0 = win0_3.index t (0 : Fin 3) * 1 + 1 * (y 0).val
      have hy : (y 0).val < 1 := (y 0).isLt
      omega
    | ⟨1, _⟩ =>
      show win0_1.index t (1 : Fin 3) * 2048 + 1 * k.val = k.val
      omega
    | ⟨2, _⟩ =>
      show win0_1.index t (2 : Fin 3) * 512 + 1 * e.val = e.val
      omega
  · show (y 2).val = win0_3.index t (2 : Fin 3) * 512 + 1 * (y 2).val
    omega

/-- An index of the output's array is in point t's block iff each coordinate is in the block's range on its axis. -/
theorem mem_blk3 (t : Fin cfg0.N) (i : S16x2048x512.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v2_0).slice (win0_3.rect t)).set ↔ _
  rw [View.set_slice_whole, Rect.mem_set_unit]
  exact Iff.rfl

/-- The output's blocks tile their array: row i of batch-and-group bg is in the block of point (bg, i / 512). -/
theorem cover3 (i : S16x2048x512.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 512 := (i 2).isLt
  obtain ⟨t, ht⟩ := idx_onto3 ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 512 ≤ (i 2).val ∧ (i 2).val < win0_3.index t (2 : Fin 3) * 512 + 512
    omega

/-- The output's array after the region. -/
theorem final3 (c : Dev nD) : (dats m 0 c).arrAt 3 cfg0.N = out16 (V m c main_v0) (V m c main_v1) (V m c main_arg2) :=
  (dats m 0 c).arrAt_eq_of_cover 3 _ (fun t _ => flushed3_eq m c t) cover3

end Cert.KernelIdeal.Blocks

end
-- ==== Proof.KernelRun.lean ====
/-
  The kernel's run, read: both results as functions of the three arguments.

  Before the region the program reshapes po_z and pr_z to [16, 2048, 512] (M is passed as it is); after it, it reshapes
  the region's two arrays back to four axes. With what the region leaves in its arrays (out16 and attn16 of the arrays
  it reads) and the reshape identities, the two results are outArr and attnArr of the arguments, and the arguments end
  unchanged.
-/
import proofs.«121790_j5282809774979_1_alg».proof.Proof.KernelBlocks
import Idealize.ShloMosaic.Lib.StableHlo.Run

noncomputable section

namespace Cert.KernelIdeal.Result

open Cert.KernelIdeal Cert.KernelIdeal.Gen Cert.Attn Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The region finds po_z reshaped to [16, 2048, 512], -/
theorem V_v0 (c : Dev nD) : (V m c main_v0 : S16x2048x512.Idx → EReal)
    = shapeCast S16x2048x512 (m ((c : Thread nD τ).loc main_arg0)) shapeCasts_S2x8x2048x512_S16x2048x512 := by
  show StableHlo.after hostOps0 (fun b => m (c, b)) (Proc.devRef .tc main_v0) = _
  after_results
  rfl

/-- and pr_z reshaped the same way. -/
theorem V_v1 (c : Dev nD) : (V m c main_v1 : S16x2048x512.Idx → EReal)
    = shapeCast S16x2048x512 (m ((c : Thread nD τ).loc main_arg1)) shapeCasts_S2x8x2048x512_S16x2048x512 := by
  show StableHlo.after hostOps0 (fun b => m (c, b)) (Proc.devRef .tc main_v1) = _
  after_results
  rfl

/-- The first result: the region's output array reshaped to four axes is outArr of the arguments. -/
theorem result_out (c : Dev nD) : (Pipeline.afterTail₀ cfgs (dats m) 0 (V0 m) [hostOps1] c main_v3 : S2x8x2048x512.Idx → EReal)
    = outArr (m ((c : Thread nD τ).loc main_arg0)) (m ((c : Thread nD τ).loc main_arg1)) (m ((c : Thread nD τ).loc main_arg2)) := by
  have e : (Pipeline.afterTail₀ cfgs (dats m) 0 (V0 m) [hostOps1] c main_v3 : S2x8x2048x512.Idx → EReal)
      = shapeCast S2x8x2048x512 (out16 (V m c main_v0) (V m c main_v1) (V m c main_arg2)) shapeCasts_S16x2048x512_S2x8x2048x512 := by
    unfold Pipeline.afterTail₀
    show StableHlo.after hostOps1 _ (Proc.devRef .tc main_v3) = _
    after_results
    exact congrArg (fun A : S16x2048x512.Idx → EReal => shapeCast S2x8x2048x512 A shapeCasts_S16x2048x512_S2x8x2048x512)
      ((Pipeline.withArrays_arr spec0 launch0.win.arr_inj c (V0 m c) (fun w => (dats m 0 c).arrAt w cfg0.N) 3).trans (Blocks.final3 m c))
  rw [e, V_v0, V_v1, V_main_arg2]
  exact out_reshape _ _ _ _ _

/-- The second result: the region's weights array reshaped to four axes is attnArr of the arguments. -/
theorem result_attn (c : Dev nD) : (Pipeline.afterTail₀ cfgs (dats m) 0 (V0 m) [hostOps1] c main_v4 : S2x8x2048x2048.Idx → EReal)
    = attnArr (m ((c : Thread nD τ).loc main_arg0)) (m ((c : Thread nD τ).loc main_arg1)) (m ((c : Thread nD τ).loc main_arg2)) := by
  have e : (Pipeline.afterTail₀ cfgs (dats m) 0 (V0 m) [hostOps1] c main_v4 : S2x8x2048x2048.Idx → EReal)
      = shapeCast S2x8x2048x2048 (attn16 (V m c main_v0) (V m c main_v1) (V m c main_arg2)) shapeCasts_S16x2048x2048_S2x8x2048x2048 := by
    unfold Pipeline.afterTail₀
    show StableHlo.after hostOps1 _ (Proc.devRef .tc main_v4) = _
    after_results
    exact congrArg (fun A : S16x2048x2048.Idx → EReal => shapeCast S2x8x2048x2048 A shapeCasts_S16x2048x2048_S2x8x2048x2048)
      ((Pipeline.withArrays_arr spec0 launch0.win.arr_inj c (V0 m c) (fun w => (dats m 0 c).arrAt w cfg0.N) 4).trans (Blocks.final4 m c))
  rw [e, V_v0, V_v1, V_main_arg2]
  exact attn_reshape _ _ _ _ _

/-- Every weakly fair execution of the kernel's program terminates with the two results at outArr and attnArr of the
    arguments, and the arguments unchanged. -/
theorem run : θ_run defs (onTc (τ := τ) (main (F := Ideal))) ⟨m, fun _ => 0, ρ⟩ fun r => ∀ c : Dev nD,
      r.2.mem ((c.tc : Thread nD τ).loc main_v3)
        = outArr (m ((c.tc : Thread nD τ).loc main_arg0)) (m ((c.tc : Thread nD τ).loc main_arg1)) (m ((c.tc : Thread nD τ).loc main_arg2))
      ∧ r.2.mem ((c.tc : Thread nD τ).loc main_v4)
        = attnArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v3 (Pipeline.mem_restRefs_of main_v3 (by decide) (by decide))).trans (result_out m c),
     ((h c).2 main_v4 (Pipeline.mem_restRefs_of main_v4 (by decide) (by decide))).trans (result_attn m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 2).trans (((dats m 0 c).arrAt_in 2 rfl _).trans ((A_eq m c 2).trans (V_main_arg2 m c)))⟩)
    (run_main m ρ)

end Cert.KernelIdeal.Result

end
-- ==== Proof.RefRows.lean ====
/-
  The reference's two results read at an index, at the ideal values.

  The reference computes, over the whole arrays: the projected queries (a product contracting the last axis of po_z with
  the first of M), the logits (a batched product over (b, g) contracting the two last axes), the row maximum (a reduce by
  maximum from −∞ along the last axis, then a maximum with −∞ once more, which changes nothing), the shifted
  exponentials, their sum along the last axis from zero, the quotient, and the batched product of the weights with pr_z.
  So its weights at (b, g, i, j) are attnRow of query row (b, g, i) against the keys of (b, g) at j, and its output at
  (b, g, i, d) is outRow of the same row at d: the arrays attnArr and outArr.
-/
import proofs.«121790_j5282809774979_1_alg».proof.Proof.Gen.ReferenceIdeal.Read
import proofs.«121790_j5282809774979_1_alg».proof.Proof.Softmax
import Idealize.ShloMosaic.PureOps.Reduce

noncomputable section

open scoped BigOperators

namespace Cert.ReferenceIdeal.Rows

open Cert.ReferenceIdeal Cert.ReferenceIdeal.Gen Cert.ReferenceIdeal.Read Cert.Attn Idealize.ShloMosaic Idealize.ShloMosaic.ValueIdx

variable (x0 x1 : (⟨S2x8x2048x512, .f32⟩ : BufTy).Contents (Elt Ideal)) (x2 : (⟨S512x512, .f32⟩ : BufTy).Contents (Elt Ideal))

/-- The logits of query row (b, g, i), as a row function. -/
abbrev logits (b : Fin 2) (g : Fin 8) (i : Fin 2048) : Fin 2048 → EReal :=
  score (proj (fun d => x0 (ix4 b g i d)) (fun d e => x2 (ix2 d e))) (fun k e => x1 (ix4 b g k e))

/-- The reference's logits at (b, g, i, j). -/
theorem logits_apply (b : Fin 2) (g : Fin 8) (i j : Fin 2048) :
    val_main_v1 (F := Ideal) x0 x1 x2 (ix4 b g i j) = logits x0 x1 x2 b g i j := by
  rw [val_main_v1_apply]
  unfold logits score
  refine Finset.sum_congr rfl fun e _ => congrArg₂ (fun a c => a * c) ?_ (congrArg x1 ?_)
  · rw [val_main_v0_apply]
    unfold proj
    refine Finset.sum_congr rfl fun d _ => congrArg₂ (fun a c => a * c) (congrArg x0 ?_) (congrArg x2 ?_)
    · exact funext fun a => Fin.ext (by match a with | ⟨0, _⟩ => rfl | ⟨1, _⟩ => rfl | ⟨2, _⟩ => rfl | ⟨3, _⟩ => rfl)
    · exact funext fun a => Fin.ext (by match a with | ⟨0, _⟩ => rfl | ⟨1, _⟩ => rfl)
  · exact funext fun a => Fin.ext (by match a with | ⟨0, _⟩ => rfl | ⟨1, _⟩ => rfl | ⟨2, _⟩ => rfl | ⟨3, _⟩ => rfl)

/-- The reduce by maximum along the last axis, from −∞: at (b, g, i) the row maximum of the logits. -/
theorem hostMax_apply (y : FVec Ideal S2x8x2048x2048 .f32) (h' : S2x8x2048x2048.ReducesTo [3] S2x8x2048)
    (b : Fin 2) (g : Fin 8) (i : Fin 2048) :
    Host.reduce (FloatOps.maximumf (F := Ideal) (φ := .f32)) y (val_main_cst (F := Ideal)) h' h_S_ (ix3 b g i) = rowMax (fun j => y (ix4 b g i j)) := by
  refine (Host.reduce_eq_fold_single (FloatOps.maximumf (F := Ideal) (φ := .f32)) y (val_main_cst (F := Ideal)) h'
    (by decide : S2x8x2048x2048.Reduces [3] S2x8x2048) h_S_ (ix3 b g i)).trans ?_
  unfold rowMax
  refine congrArg (fun f => (Finset.univ : Finset (Fin 2048)).fold max negInf f) (funext fun j => congrArg y ?_)
  exact funext fun a => Fin.ext (by match a with | ⟨0, _⟩ => rfl | ⟨1, _⟩ => rfl | ⟨2, _⟩ => rfl | ⟨3, _⟩ => rfl)

/-- The maximum the reference subtracts, at (b, g, i): the row maximum (the further maximum with −∞ changes nothing). -/
theorem rowmax_apply (b : Fin 2) (g : Fin 8) (i : Fin 2048) :
    val_main_v4 (F := Ideal) x0 x1 x2 (ix3 b g i) = rowMax (fun j => val_main_v1 (F := Ideal) x0 x1 x2 (ix4 b g i j)) := by
  rw [val_main_v4_apply, val_main_v3_apply, val_main_cst_0_apply]
  unfold val_main_v2
  rw [hostMax_apply]
  exact max_negInf_rowMax _

/-- The shifted exponentials at (b, g, i, j). -/
theorem expo_apply (b : Fin 2) (g : Fin 8) (i j : Fin 2048) :
    val_main_v8 (F := Ideal) x0 x1 x2 (ix4 b g i j) = expo (logits x0 x1 x2 b g i) j := by
  rw [val_main_v8_apply, val_main_v7_apply, val_main_v6_apply, val_main_v5_apply,
    show idx_main_v5 (idx_main_v6 (ix4 b g i j)) = ix3 b g i from
      funext fun a => Fin.ext (by match a with | ⟨0, _⟩ => rfl | ⟨1, _⟩ => rfl | ⟨2, _⟩ => rfl),
    rowmax_apply, logits_apply]
  unfold expo
  exact congrArg (fun s => Ideal.exp (logits x0 x1 x2 b g i j - rowMax s)) (funext fun k => logits_apply x0 x1 x2 b g i k)

/-- The sum of the shifted exponentials at (b, g, i): from the zero word. -/
theorem denom_apply (b : Fin 2) (g : Fin 8) (i : Fin 2048) :
    val_main_v9 (F := Ideal) x0 x1 x2 (ix3 b g i) = ∑ k : Fin 2048, expo (logits x0 x1 x2 b g i) k := by
  rw [val_main_v9_apply, val_main_cst_1_apply]
  show Ideal.ofBits .f32 0x00000000#32 + _ = _
  rw [Ideal.ofBits_zero_f32, zero_add]
  refine Finset.sum_congr rfl fun k _ => ?_
  rw [show idx_main_v9 (ix3 b g i) k = ix4 b g i k from
    funext fun a => Fin.ext (by match a with | ⟨0, _⟩ => rfl | ⟨1, _⟩ => rfl | ⟨2, _⟩ => rfl | ⟨3, _⟩ => rfl)]
  exact expo_apply x0 x1 x2 b g i k

/-- The reference's weights at (b, g, i, j). -/
theorem weights_apply (b : Fin 2) (g : Fin 8) (i j : Fin 2048) :
    val_main_v12 (F := Ideal) x0 x1 x2 (ix4 b g i j)
      = attnRow (fun d => x0 (ix4 b g i d)) (fun d e => x2 (ix2 d e)) (fun k e => x1 (ix4 b g k e)) j := by
  rw [val_main_v12_apply, val_main_v11_apply, val_main_v10_apply,
    show idx_main_v10 (idx_main_v11 (ix4 b g i j)) = ix3 b g i from
      funext fun a => Fin.ext (by match a with | ⟨0, _⟩ => rfl | ⟨1, _⟩ => rfl | ⟨2, _⟩ => rfl),
    expo_apply, denom_apply]
  rfl

/-- The reference's weights are the array attnArr of its arguments. -/
theorem weights_eq : val_main_v12 (F := Ideal) x0 x1 x2 = attnArr x0 x1 x2 := by
  funext i
  obtain ⟨b, g, r, j, rfl⟩ : ∃ (b : Fin 2) (g : Fin 8) (r : Fin 2048) (j : Fin 2048), i = ix4 b g r j :=
    ⟨i 0, i 1, i 2, i 3, eq_ix4 i⟩
  exact weights_apply x0 x1 x2 b g r j

/-- The reference's output is the array outArr of its arguments. -/
theorem out_eq : val_main_v13 (F := Ideal) x0 x1 x2 = outArr x0 x1 x2 := by
  funext i
  obtain ⟨b, g, r, d, rfl⟩ : ∃ (b : Fin 2) (g : Fin 8) (r : Fin 2048) (d : Fin 512), i = ix4 b g r d :=
    ⟨i 0, i 1, i 2, i 3, eq_ix4 i⟩
  rw [val_main_v13_apply]
  show _ = mix (attnRow (fun d => x0 (ix4 b g r d)) (fun d e => x2 (ix2 d e)) (fun k e => x1 (ix4 b g k e))) (fun k e => x1 (ix4 b g k e)) d
  unfold mix
  refine Finset.sum_congr rfl fun k _ => congrArg₂ (fun a c => a * c) ?_ (congrArg x1 ?_)
  · rw [show lidx_main_v13 (ix4 b g r d) k = ix4 b g r k from
      funext fun a => Fin.ext (by match a with | ⟨0, _⟩ => rfl | ⟨1, _⟩ => rfl | ⟨2, _⟩ => rfl | ⟨3, _⟩ => rfl)]
    exact weights_apply x0 x1 x2 b g r k
  · exact funext fun a => Fin.ext (by match a with | ⟨0, _⟩ => rfl | ⟨1, _⟩ => rfl | ⟨2, _⟩ => rfl | ⟨3, _⟩ => rfl)

end Cert.ReferenceIdeal.Rows

end
-- ==== Proof.lean ====
/-
  The kernel and its reference compute the same bilinear-score attention.

  For each batch b, group g and query row i both programs form the projected query q = po_z(b, g, i, ·) · M, the logits
  a(j) = Σ_e q(e) · pr_z(b, g, j, e), the softmax weights A(j) = exp (a(j) − max a) / Σ_j' exp (a(j') − max a), and
  the output Σ_j A(j) · pr_z(b, g, j, ·). The kernel does it per block of 512 query rows against the 2048 keys of the
  block's batch-and-group, over a flattened [16, …] axis, with products into zero accumulators and lane reductions; the
  reference over the whole four-axis arrays, with batched products and reductions along the last axis. At the ideal
  values a product into a zero accumulator and the reference's product are the same sum, a lane reduction and the
  reference's reduce the same fold, and a reshape keeps the row-major position: so both results of both programs are
  the arrays outArr and attnArr of the arguments (Softmax.lean), entry by entry. No law of the extended reals that could
  fail at an infinity is used, so the precondition is never opened. The idealization rewrote nothing, so the
  preservation claim is trivial.
-/
import proofs.«121790_j5282809774979_1_alg».proof.Defs
import proofs.«121790_j5282809774979_1_alg».proof.Proof.Gen.Kernel
import proofs.«121790_j5282809774979_1_alg».proof.Proof.Gen.Kernel.Skeleton
import proofs.«121790_j5282809774979_1_alg».proof.Proof.Gen.Kernel.Launch
import proofs.«121790_j5282809774979_1_alg».proof.Proof.Gen.Kernel.Points
import proofs.«121790_j5282809774979_1_alg».proof.Proof.Gen.Kernel.Frame
import proofs.«121790_j5282809774979_1_alg».proof.Proof.Gen.KernelIdeal
import proofs.«121790_j5282809774979_1_alg».proof.Proof.Gen.KernelIdeal.Skeleton
import proofs.«121790_j5282809774979_1_alg».proof.Proof.Gen.KernelIdeal.Launch
import proofs.«121790_j5282809774979_1_alg».proof.Proof.Gen.KernelIdeal.Points
import proofs.«121790_j5282809774979_1_alg».proof.Proof.Gen.KernelIdeal.Frame
import proofs.«121790_j5282809774979_1_alg».proof.Proof.Gen.ReferenceIdeal
import proofs.«121790_j5282809774979_1_alg».proof.Proof.Gen.ReferenceIdeal.Run
import proofs.«121790_j5282809774979_1_alg».proof.Proof.Gen.ReferenceIdeal.Read
import proofs.«121790_j5282809774979_1_alg».proof.Proof.Gen.Pre_finite_inputs
import proofs.«121790_j5282809774979_1_alg».proof.Proof.KernelRun
import proofs.«121790_j5282809774979_1_alg».proof.Proof.RefRows
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the output at outArr and the weights at attnArr of
    the arguments. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v13_eq, Cert.ReferenceIdeal.Rows.out_eq, (hagree c).1, (hagree c).2.1, (hagree c).2.2]
  · rw [Cert.ReferenceIdeal.Read.val_main_v12_eq, Cert.ReferenceIdeal.Rows.weights_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
